-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S8x1024x2048 : Shape := ⟨3, ![8, 1024, 2048]⟩
abbrev S1024x4096 : Shape := ⟨2, ![1024, 4096]⟩
abbrev S512x4096 : Shape := ⟨2, ![512, 4096]⟩
abbrev S512x2048 : Shape := ⟨2, ![512, 2048]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S512x4096 : S_.BroadcastsInDim S512x4096 (![] : Fin 0 → Fin S512x4096.rank)
  reducesTo_S512x4096_S_d0_1 : S512x4096.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_arg7 : FVec F S512x4096 .f32) (main_arg8 : FVec F S512x2048 .f32) (main_v33 : IVec S_ 1) : IVec S_ 1 :=
  let main_v34 : FVec F S512x4096 .f32 := Host.absf main_arg7
  let main_cst_12 : FVec F S_ .f32 := constant S_ .f32 0x7F800000#32
  let main_v35 : FVec F S512x4096 .f32 := broadcastInDim S512x4096 ![] bcast_S_S512x4096 main_cst_12
  let main_v36 : IVec S512x4096 1 := cmpf .olt main_v34 main_v35
  let main_c_13 : IVec S_ 1 := constantI S_ 1 1#1
  let main_v37 : IVec S_ 1 := (fun x v => Host.reduce IntOp.andi x v reducesTo_S512x4096_S_d0_1 h_S_) main_v36 main_c_13
  let main_v38 : IVec S_ 1 := andi main_v33 main_v37
  let main_v39 : FVec F S512x2048 .f32 := Host.absf main_arg8
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  main_v43

def fn_part1 {F : FTy → Type} [FloatOps F] (main_arg4 : FVec F S512x4096 .f32) (main_arg5 : FVec F S512x2048 .f32) (main_arg6 : FVec F S1024x4096 .f32) (main_arg7 : FVec F S512x4096 .f32) (main_arg8 : FVec F S512x2048 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_v33

def fn {F : FTy → Type} [FloatOps F] (main_arg0 : FVec F S8x1024x4096 .f32) (main_arg1 : FVec F S8x1024x4096 .f32) (main_arg2 : FVec F S8x1024x2048 .f32) (main_arg3 : FVec F S1024x4096 .f32) (main_arg4 : FVec F S512x4096 .f32) (main_arg5 : FVec F S512x2048 .f32) (main_arg6 : FVec F S1024x4096 .f32) (main_arg7 : FVec F S512x4096 .f32) (main_arg8 : FVec F S512x2048 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Kernel.lean ====
abbrev S8x1024x4096 : Shape := ⟨3, ![8, 1024, 4096]⟩
abbrev S8x1024x2048 : Shape := ⟨3, ![8, 1024, 2048]⟩
abbrev S1024x4096 : Shape := ⟨2, ![1024, 4096]⟩
abbrev S512x4096 : Shape := ⟨2, ![512, 4096]⟩
abbrev S512x2048 : Shape := ⟨2, ![512, 2048]⟩
abbrev S4096x1024 : Shape := ⟨2, ![4096, 1024]⟩
abbrev S4096x512 : Shape := ⟨2, ![4096, 512]⟩
abbrev S2048x512 : Shape := ⟨2, ![2048, 512]⟩
abbrev S8192x4096 : Shape := ⟨2, ![8192, 4096]⟩
abbrev S8192x2048 : Shape := ⟨2, ![8192, 2048]⟩
abbrev S_ : Shape := ⟨0, ![]⟩
abbrev S512x1024 : Shape := ⟨2, ![512, 1024]⟩
abbrev S512x512 : Shape := ⟨2, ![512, 512]⟩

abbrev nBuf : Space → Nat
  | .hbm => 27
  | .vmem => 21
  | .smem => 0
  | _ => 0

abbrev bufTy : (tb : Table) → Fin (tcTables nBuf tb) → BufTy
  | .hbm, ⟨0, _⟩ => ⟨S8x1024x4096, .f32⟩
  | .hbm, ⟨1, _⟩ => ⟨S8x1024x4096, .f32⟩
  | .hbm, ⟨2, _⟩ => ⟨S8x1024x2048, .f32⟩
  | .hbm, ⟨3, _⟩ => ⟨S1024x4096, .f32⟩
  | .hbm, ⟨4, _⟩ => ⟨S512x4096, .f32⟩
  | .hbm, ⟨5, _⟩ => ⟨S512x2048, .f32⟩
  | .hbm, ⟨6, _⟩ => ⟨S1024x4096, .f32⟩
  | .hbm, ⟨7, _⟩ => ⟨S512x4096, .f32⟩
  | .hbm, ⟨8, _⟩ => ⟨S512x2048, .f32⟩
  | .hbm, ⟨9, _⟩ => ⟨S1024x4096, .f32⟩
  | .hbm, ⟨10, _⟩ => ⟨S1024x4096, .bf16⟩
  | .hbm, ⟨11, _⟩ => ⟨S4096x1024, .bf16⟩
  | .hbm, ⟨12, _⟩ => ⟨S512x4096, .f32⟩
  | .hbm, ⟨13, _⟩ => ⟨S512x4096, .bf16⟩
  | .hbm, ⟨14, _⟩ => ⟨S4096x512, .bf16⟩
  | .hbm, ⟨15, _⟩ => ⟨S512x2048, .f32⟩
  | .hbm, ⟨16, _⟩ => ⟨S512x2048, .bf16⟩
  | .hbm, ⟨17, _⟩ => ⟨S2048x512, .bf16⟩
  | .hbm, ⟨18, _⟩ => ⟨S8192x4096, .f32⟩
  | .hbm, ⟨19, _⟩ => ⟨S8192x4096, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8x1024x2048, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x4096, .f32⟩
  | .local _ .vmem, ⟨8, _⟩ => ⟨S512x4096, .f32⟩
  | .local _ .vmem, ⟨9, _⟩ => ⟨S4096x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .f32⟩
  | .local _ .vmem, ⟨15, _⟩ => ⟨S512x2048, .f32⟩
  | .local _ .vmem, ⟨16, _⟩ => ⟨S2048x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_3 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S1024x4096_S4096x1024_1_0 : S1024x4096.Transposes [1, 0] S4096x1024
  transposes_S512x4096_S4096x512_1_0 : S512x4096.Transposes [1, 0] S4096x512
  transposes_S512x2048_S2048x512_1_0 : S512x2048.Transposes [1, 0] S2048x512
  shapeCasts_S8x1024x4096_S8192x4096 : S8x1024x4096.ShapeCasts S8192x4096
  shapeCasts_S8x1024x2048_S8192x2048 : S8x1024x2048.ShapeCasts S8192x2048
  bcast_S_S8192x2048 : S_.BroadcastsInDim S8192x2048 (![] : Fin 0 → Fin S8192x2048.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S8x1024x2048 : S8192x2048.ShapeCasts S8x1024x2048
  dot_S512x4096_S4096x1024_S512x1024_1_0_0_1_n_n_wf : DotDims.WF S512x4096 S4096x1024 S512x1024 [1] [0] [0] [1] [] []
  dot_S512x4096_S4096x512_S512x512_1_0_0_1_n_n_wf : DotDims.WF S512x4096 S4096x512 S512x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x2048.size a
  hwx0_2 : ∀ i : grid0.Coords, EltTy.bits .f32 = 32 ∨ (Rect.block (s := S8192x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x2048.size a
  hwx0_3 : ∀ i : grid0.Coords, EltTy.bits .f32 = 32 ∨ (Rect.block (s := S8192x2048) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x2048.size a
  hwx1_2 : ∀ i : grid1.Coords, EltTy.bits .f32 = 32 ∨ (Rect.block (s := S8192x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x2048.size a
  hwx1_3 : ∀ i : grid1.Coords, EltTy.bits .f32 = 32 ∨ (Rect.block (s := S8192x2048) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x512.size a
  hwx2_1 : ∀ i : grid2.Coords, EltTy.bits .bf16 = 32 ∨ (Rect.block (s := S2048x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x2048.size a
  hwx2_2 : ∀ i : grid2.Coords, EltTy.bits .f32 = 32 ∨ (Rect.block (s := S8192x2048) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S8192x2048.size a
  hwx2_3 : ∀ i : grid2.Coords, EltTy.bits .f32 = 32 ∨ (Rect.block (s := S8192x2048) S512x512.size (cc2_transform_3 i) (hinb2_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v9) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2048x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  halias0_3 : Pipeline.Aliased win0 2 3
  halias1_3 : Pipeline.Aliased win1 2 3
  halias2_3 : Pipeline.Aliased win2 2 3

variable [Facts]
-- ==== ReferenceIdeal.lean ====
abbrev S8x1024x4096 : Shape := ⟨3, ![8, 1024, 4096]⟩
abbrev S8x1024x2048 : Shape := ⟨3, ![8, 1024, 2048]⟩
abbrev S1024x4096 : Shape := ⟨2, ![1024, 4096]⟩
abbrev S512x4096 : Shape := ⟨2, ![512, 4096]⟩
abbrev S512x2048 : Shape := ⟨2, ![512, 2048]⟩
abbrev S8x1024x1024 : Shape := ⟨3, ![8, 1024, 1024]⟩
abbrev S8x1024x512 : Shape := ⟨3, ![8, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S8x1024x4096, .f32⟩
  | .hbm, ⟨2, _⟩ => ⟨S8x1024x2048, .f32⟩
  | .hbm, ⟨3, _⟩ => ⟨S1024x4096, .f32⟩
  | .hbm, ⟨4, _⟩ => ⟨S512x4096, .f32⟩
  | .hbm, ⟨5, _⟩ => ⟨S512x2048, .f32⟩
  | .hbm, ⟨6, _⟩ => ⟨S1024x4096, .f32⟩
  | .hbm, ⟨7, _⟩ => ⟨S512x4096, .f32⟩
  | .hbm, ⟨8, _⟩ => ⟨S512x2048, .f32⟩
  | .hbm, ⟨9, _⟩ => ⟨S1024x4096, .f32⟩
  | .hbm, ⟨10, _⟩ => ⟨S8x1024x1024, .f32⟩
  | .hbm, ⟨11, _⟩ => ⟨S512x4096, .f32⟩
  | .hbm, ⟨12, _⟩ => ⟨S8x1024x512, .f32⟩
  | .hbm, ⟨13, _⟩ => ⟨S512x2048, .f32⟩
  | .hbm, ⟨14, _⟩ => ⟨S8x1024x512, .f32⟩
  | .hbm, ⟨15, _⟩ => ⟨S8x1024x2048, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]

class Facts₀ : Prop where
  concatenates_S8x1024x1024_S8x1024x512_S8x1024x512_S8x1024x2048_d2 : Shape.Concatenates [S8x1024x1024, S8x1024x512, S8x1024x512] S8x1024x2048 2
  dot_S8x1024x4096_S1024x4096_S8x1024x1024_2_1_01_0_n_n_wf : DotDims.WF S8x1024x4096 S1024x4096 S8x1024x1024 [2] [1] [0, 1] [0] [] []
  dot_S8x1024x4096_S512x4096_S8x1024x512_2_1_01_0_n_n_wf : DotDims.WF S8x1024x4096 S512x4096 S8x1024x512 [2] [1] [0, 1] [0] [] []
  dot_S8x1024x2048_S512x2048_S8x1024x512_2_1_01_0_n_n_wf : DotDims.WF S8x1024x2048 S512x2048 S8x1024x512 [2] [1] [0, 1] [0] [] []

variable [Facts₀]

def dot_S8x1024x4096_S1024x4096_S8x1024x1024_2_1_01_0_n_n : DotDims S8x1024x4096 S1024x4096 S8x1024x1024 where
  lhsContracting := [2]
  rhsContracting := [1]
  lhsNonContracting := [0, 1]
  rhsNonContracting := [0]
  lhsBatch := []
  rhsBatch := []
  wf := dot_S8x1024x4096_S1024x4096_S8x1024x1024_2_1_01_0_n_n_wf
def dot_S8x1024x4096_S512x4096_S8x1024x512_2_1_01_0_n_n : DotDims S8x1024x4096 S512x4096 S8x1024x512 where
  lhsContracting := [2]
  rhsContracting := [1]
  lhsNonContracting := [0, 1]
  rhsNonContracting := [0]
  lhsBatch := []
  rhsBatch := []
  wf := dot_S8x1024x4096_S512x4096_S8x1024x512_2_1_01_0_n_n_wf
def dot_S8x1024x2048_S512x2048_S8x1024x512_2_1_01_0_n_n : DotDims S8x1024x2048 S512x2048 S8x1024x512 where
  lhsContracting := [2]
  rhsContracting := [1]
  lhsNonContracting := [0, 1]
  rhsNonContracting := [0]
  lhsBatch := []
  rhsBatch := []
  wf := dot_S8x1024x2048_S512x2048_S8x1024x512_2_1_01_0_n_n_wf

class Facts : Prop extends Facts₀ where

variable [Facts]
-- ==== Proof.KernelRun.lean ====
/-
  The idealized kernel program's run with its result NAMED.  The program is three pallas_calls among stretches of
  host operations; the buffer contents at each boundary are a fold from the launch memory (`Gen.W0` … `Gen.W7`).
  Every weakly fair execution terminates with every unscoped buffer at the last boundary's contents `Gen.W7`; read at the
  result buffer this says what the result holds, and read at the arguments it says they are unchanged.
-/
import proofs.«133123_j48301202211096_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.Spec.lean ====
/-
  The mathematics of the bundle of three masked linear maps, on the extended reals, with no program in sight.

  A masked linear map sends a row `x` to the row whose entry `o` is `∑ k, x k * (w o k * mask o k)`.  Written with the
  weights folded and transposed beforehand, `Wt k o = w o k * mask o k`, an entry is `∑ k, X r k * Wt k o`
  (`prodAt`).  Three such maps write side by side into one wide array, each into its own band of columns: `band` is an
  array whose columns `lo ≤ j < lo + N` hold a product and whose other columns keep what was there.  Three nested
  bands that tile the columns leave, at each column, the product of the band the column falls in (`band3_apply`).
-/
import Idealize.ShloMosaic.PureOps.Ideal
import Idealize.ShloMosaic.Lib.ValueIdx

noncomputable section

namespace Cert.Tracts

open Idealize.ShloMosaic Idealize.ShloMosaic.ValueIdx

/-- Entry `(r, o)` of the matrix product `X · Wt`. -/
def prodAt {M K N : ℕ} (X : (⟨2, ![M, K]⟩ : Shape).Idx → EReal) (Wt : (⟨2, ![K, N]⟩ : Shape).Idx → EReal)
    (r : Fin M) (o : Fin N) : EReal :=
  ∑ k : Fin K, X (ix2 r k) * Wt (ix2 k o)

/-- An `[M, T]` array whose columns `lo ≤ j < lo + N` hold `X · Wt` (column `j` holding the product's column
    `j - lo`) and whose other columns hold `old`. -/
def band {M K N T : ℕ} (lo : ℕ) (X : (⟨2, ![M, K]⟩ : Shape).Idx → EReal) (Wt : (⟨2, ![K, N]⟩ : Shape).Idx → EReal)
    (old : (⟨2, ![M, T]⟩ : Shape).Idx → EReal) : (⟨2, ![M, T]⟩ : Shape).Idx → EReal :=
  fun i => if h : lo ≤ (i 1).val ∧ (i 1).val < lo + N then
      prodAt X Wt ⟨(i 0).val, (i 0).isLt⟩ ⟨(i 1).val - lo, by omega⟩
    else old i

/-- Inside its columns a band reads the product. -/
theorem band_apply_of_mem {M K N T : ℕ} (lo : ℕ) (X : (⟨2, ![M, K]⟩ : Shape).Idx → EReal)
    (Wt : (⟨2, ![K, N]⟩ : Shape).Idx → EReal) (old : (⟨2, ![M, T]⟩ : Shape).Idx → EReal) (r : Fin M) (j : Fin T)
    (h : lo ≤ j.val ∧ j.val < lo + N) :
    band lo X Wt old (ix2 r j) = prodAt X Wt r ⟨j.val - lo, by omega⟩ := by
  unfold band
  rw [dif_pos (show lo ≤ ((ix2 r j : (⟨2, ![M, T]⟩ : Shape).Idx) 1).val ∧ ((ix2 r j : (⟨2, ![M, T]⟩ : Shape).Idx) 1).val < lo + N from h)]
  rfl

/-- Outside them it reads what was there. -/
theorem band_apply_of_not_mem {M K N T : ℕ} (lo : ℕ) (X : (⟨2, ![M, K]⟩ : Shape).Idx → EReal)
    (Wt : (⟨2, ![K, N]⟩ : Shape).Idx → EReal) (old : (⟨2, ![M, T]⟩ : Shape).Idx → EReal) (r : Fin M) (j : Fin T)
    (h : ¬(lo ≤ j.val ∧ j.val < lo + N)) :
    band lo X Wt old (ix2 r j) = old (ix2 r j) := by
  unfold band
  rw [dif_neg (show ¬(lo ≤ ((ix2 r j : (⟨2, ![M, T]⟩ : Shape).Idx) 1).val ∧ ((ix2 r j : (⟨2, ![M, T]⟩ : Shape).Idx) 1).val < lo + N) from h)]

end Cert.Tracts

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Region0.lean ====
/-
  The first pallas_call of the program, read as a value: it leaves, in columns 0 … 1023 of the wide result array, the
  product of its row operand with its (folded, transposed) weight operand, and every other column as it found it.

  Each of the 16 grid points loads a block of 512 rows of the row operand and the whole weight operand, multiplies them
  into a zero accumulator and stores the 512 × 1024 result into the block of the result array at the same rows and at
  column block 0 (blocks of 1024 columns).  What a point writes back is therefore that block of ONE whole-array
  function, the band; the blocks of the 16 points cover exactly the band's columns.
-/
import proofs.«133123_j48301202211096_2_alg».proof.Proof.Gen.KernelIdeal.Frame
import proofs.«133123_j48301202211096_2_alg».proof.Proof.Spec
import proofs.«133123_j48301202211096_2_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Tracts
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the first block times the column of the second. -/
theorem pay_apply (x0 : Vec Ideal S512x4096 .f32) (x1 : Vec Ideal S4096x1024 .bf16) (p : Fin 512) (q : Fin 1024) :
    k0_pay1 (F := Ideal) x0 x1 (ix2 p q) = ∑ k : Fin 4096, x0 (ix2 p k) * x1 (ix2 k q) := by
  unfold k0_pay1
  simp only [shapeCast_self]
  exact DenseLayers.matmul_rowcol_zero_apply (m := 512) (k := 4096) (n := 1024) dot_S512x4096_S4096x1024_S512x1024_1_0_0_1_n_n_wf none _ _ p q

/-- The printed index maps over the grid: the row operand's block and the result's block sit at the same block row,
    the weight is one block, and the result's column block is 0. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_3.index t (1 : Fin 2) = 0 ∧ win0_3.index t (0 : Fin 2) ≤ 15 :=
  (by decide +kernel : ∀ t : Fin grid0.N, _)

/-- Every block row is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- What point `t` writes back is block `t` of the band. -/
theorem flushed_eq (c : Dev nD) (t : Fin cfg0.N) :
    (dat0 V c).flushed 3 t = ((cfg0.win 3).blk t).view.read (Elt Ideal)
      (band (M := 8192) (K := 4096) (N := 1024) (T := 2048) 0 (V c main_v9) (V c main_v2) (V c main_v13)) := by
  show (cfg0.win 3).cut (grid0.coords t) ((dat0 V c).after 3 t) = _
  rw [after0_3]
  unfold out0_3
  rw [View.canon_unit_zero hz]
  simp only [View.ld_unit_zero (S := S512x4096) hz, View.ld_unit_zero (S := S4096x1024) hz]
  obtain ⟨e0, e1, e2, e3, e4, e5⟩ := idx_facts t
  funext y
  obtain ⟨p, q, rfl⟩ : ∃ (p : Fin 512) (q : Fin 1024), y = ix2 p q := ⟨y 0, y 1, eq_ix2 y⟩
  show k0_pay1 (F := Ideal) (iblk0 V c 0 t) (iblk0 V c 1 t) (ix2 p q)
    = band (M := 8192) (K := 4096) (N := 1024) (T := 2048) 0 (V c main_v9) (V c main_v2) (V c main_v13)
        (((cfg0.win 3).blk t).view.emb (ix2 p q))
  refine (pay_apply (iblk0 V c 0 t) (iblk0 V c 1 t) p q).trans ?_
  have hp := p.isLt
  have hq := q.isLt
  have hemb : ((cfg0.win 3).blk t).view.emb (ix2 p q)
      = (ix2 (⟨win0_3.index t (0 : Fin 2) * 512 + p.val, by omega⟩ : Fin 8192) (⟨0 + q.val, by omega⟩ : Fin 2048) : S8192x2048.Idx) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = 0 + q.val; omega
  rw [hemb, band_apply_of_mem 0 _ _ _ _ _ (by show 0 ≤ 0 + q.val ∧ 0 + q.val < 0 + 1024; omega)]
  unfold prodAt
  refine Finset.sum_congr rfl fun k _ => ?_
  have hk := k.isLt
  have h0 : iblk0 V c 0 t (ix2 p k)
      = V c main_v9 (ix2 (⟨win0_3.index t (0 : Fin 2) * 512 + p.val, by omega⟩ : Fin 8192) k : S8192x4096.Idx) := by
    show V c main_v9 (((cfg0.win 0).blk t).view.emb (ix2 p k)) = _
    refine congrArg (V c main_v9) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  have h1 : iblk0 V c 1 t (ix2 k q) = V c main_v2 (ix2 k (⟨0 + q.val - 0, by omega⟩ : Fin 1024) : S4096x1024.Idx) := by
    show V c main_v2 (((cfg0.win 1).blk t).view.emb (ix2 k q)) = _
    refine congrArg (V c main_v2) (funext fun a => Fin.ext ?_)
    match a with
    | ⟨0, _⟩ => show win0_1.index t (0 : Fin 2) * 4096 + 1 * k.val = k.val; omega
    | ⟨1, _⟩ => show win0_1.index t (1 : Fin 2) * 1024 + 1 * q.val = 0 + q.val - 0; omega
  rw [h0, h1]

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v13).slice (win0_3.rect t)).set ↔ _
  rw [View.set_slice_whole, Rect.mem_set_unit]
  exact Iff.rfl

/-- Every index in the band's columns is in some point's block. -/
theorem covered (i : S8192x2048.Idx) (h : 0 ≤ (i 1).val ∧ (i 1).val < 0 + 1024) :
    ∃ t : Fin cfg0.N, (cfg0.win 3).flush t = true ∧ i ∈ ((cfg0.win 3).blk t).view.set := by
  have hi0 : (i 0).val < 8192 := (i 0).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the call: the band over what the call found. -/
theorem final (c : Dev nD) :
    (dat0 V c).arrAt 3 cfg0.N
      = band (M := 8192) (K := 4096) (N := 1024) (T := 2048) 0 (V c main_v9) (V c main_v2) (V c main_v13) := by
  funext i
  rw [(dat0 V c).arrAt_eq_piecewise 3 _ (fun t _ => flushed_eq V c t) i, A_eq0]
  by_cases h : 0 ≤ (i 1).val ∧ (i 1).val < 0 + 1024
  · rw [if_pos (covered i h)]
  · split
    · rfl
    · show V c main_v13 i = _
      unfold band
      rw [dif_neg h]

end Cert.KernelIdeal.Region0

end
-- ==== Proof.Region1.lean ====
/-
  The second pallas_call of the program, read as a value: it leaves, in columns 1024 … 1535 of the wide result array, the
  product of its row operand with its (folded, transposed) weight operand, and every other column as it found it.

  Each of the 16 grid points loads a block of 512 rows of the row operand and the whole weight operand, multiplies them
  into a zero accumulator and stores the 512 × 512 result into the block of the result array at the same rows and at
  column block 2 (blocks of 512 columns).  What a point writes back is therefore that block of ONE whole-array
  function, the band; the blocks of the 16 points cover exactly the band's columns.
-/
import proofs.«133123_j48301202211096_2_alg».proof.Proof.Gen.KernelIdeal.Frame
import proofs.«133123_j48301202211096_2_alg».proof.Proof.Spec
import proofs.«133123_j48301202211096_2_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Tracts
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the first block times the column of the second. -/
theorem pay_apply (x0 : Vec Ideal S512x4096 .f32) (x1 : Vec Ideal S4096x512 .bf16) (p : Fin 512) (q : Fin 512) :
    k1_pay1 (F := Ideal) x0 x1 (ix2 p q) = ∑ k : Fin 4096, x0 (ix2 p k) * x1 (ix2 k q) := by
  unfold k1_pay1
  simp only [shapeCast_self]
  exact DenseLayers.matmul_rowcol_zero_apply (m := 512) (k := 4096) (n := 512) dot_S512x4096_S4096x512_S512x512_1_0_0_1_n_n_wf none _ _ p q

/-- The printed index maps over the grid: the row operand's block and the result's block sit at the same block row,
    the weight is one block, and the result's column block is 2. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_3.index t (1 : Fin 2) = 2 ∧ win1_3.index t (0 : Fin 2) ≤ 15 :=
  (by decide +kernel : ∀ t : Fin grid1.N, _)

/-- Every block row is some point's. -/
theorem idx_onto : ∀ q0 : Fin 16, ∃ t : Fin cfg1.N, win1_3.index t = ![q0.val, 2] :=
  (by decide +kernel : ∀ q0 : Fin 16, ∃ t : Fin grid1.N, win1_3.index t = ![q0.val, 2])

/-- What point `t` writes back is block `t` of the band. -/
theorem flushed_eq (c : Dev nD) (t : Fin cfg1.N) :
    (dat1 V c).flushed 3 t = ((cfg1.win 3).blk t).view.read (Elt Ideal)
      (band (M := 8192) (K := 4096) (N := 512) (T := 2048) 1024 (V c main_v10) (V c main_v5) (V c main_v14)) := by
  show (cfg1.win 3).cut (grid1.coords t) ((dat1 V c).after 3 t) = _
  rw [after1_3]
  unfold out1_3
  rw [View.canon_unit_zero hz]
  simp only [View.ld_unit_zero (S := S512x4096) hz, View.ld_unit_zero (S := S4096x512) hz]
  obtain ⟨e0, e1, e2, e3, e4, e5⟩ := idx_facts t
  funext y
  obtain ⟨p, q, rfl⟩ : ∃ (p : Fin 512) (q : Fin 512), y = ix2 p q := ⟨y 0, y 1, eq_ix2 y⟩
  show k1_pay1 (F := Ideal) (iblk1 V c 0 t) (iblk1 V c 1 t) (ix2 p q)
    = band (M := 8192) (K := 4096) (N := 512) (T := 2048) 1024 (V c main_v10) (V c main_v5) (V c main_v14)
        (((cfg1.win 3).blk t).view.emb (ix2 p q))
  refine (pay_apply (iblk1 V c 0 t) (iblk1 V c 1 t) p q).trans ?_
  have hp := p.isLt
  have hq := q.isLt
  have hemb : ((cfg1.win 3).blk t).view.emb (ix2 p q)
      = (ix2 (⟨win1_3.index t (0 : Fin 2) * 512 + p.val, by omega⟩ : Fin 8192) (⟨1024 + q.val, by omega⟩ : Fin 2048) : S8192x2048.Idx) := by
    funext a; apply Fin.ext
    match a with
    | ⟨0, _⟩ => show win1_3.index t (0 : Fin 2) * 512 + 1 * p.val = win1_3.index t (0 : Fin 2) * 512 + p.val; omega
    | ⟨1, _⟩ => show win1_3.index t (1 : Fin 2) * 512 + 1 * q.val = 1024 + q.val; omega
  rw [hemb, band_apply_of_mem 1024 _ _ _ _ _ (by show 1024 ≤ 1024 + q.val ∧ 1024 + q.val < 1024 + 512; omega)]
  unfold prodAt
  refine Finset.sum_congr rfl fun k _ => ?_
  have hk := k.isLt
  have h0 : iblk1 V c 0 t (ix2 p k)
      = V c main_v10 (ix2 (⟨win1_3.index t (0 : Fin 2) * 512 + p.val, by omega⟩ : Fin 8192) k : S8192x4096.Idx) := by
    show V c main_v10 (((cfg1.win 0).blk t).view.emb (ix2 p k)) = _
    refine congrArg (V c main_v10) (funext fun a => Fin.ext ?_)
    match a with
    | ⟨0, _⟩ => show win1_0.index t (0 : Fin 2) * 512 + 1 * p.val = win1_3.index t (0 : Fin 2) * 512 + p.val; omega
    | ⟨1, _⟩ => show win1_0.index t (1 : Fin 2) * 4096 + 1 * k.val = k.val; omega
  have h1 : iblk1 V c 1 t (ix2 k q) = V c main_v5 (ix2 k (⟨1024 + q.val - 1024, by omega⟩ : Fin 512) : S4096x512.Idx) := by
    show V c main_v5 (((cfg1.win 1).blk t).view.emb (ix2 k q)) = _
    refine congrArg (V c main_v5) (funext fun a => Fin.ext ?_)
    match a with
    | ⟨0, _⟩ => show win1_1.index t (0 : Fin 2) * 4096 + 1 * k.val = k.val; omega
    | ⟨1, _⟩ => show win1_1.index t (1 : Fin 2) * 512 + 1 * q.val = 1024 + q.val - 1024; omega
  rw [h0, h1]

/-- An index of the result array is in point `t`'s block iff each coordinate is in the block's range on its axis. -/
theorem mem_blk (t : Fin cfg1.N) (i : S8192x2048.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v14).slice (win1_3.rect t)).set ↔ _
  rw [View.set_slice_whole, Rect.mem_set_unit]
  exact Iff.rfl

/-- Every index in the band's columns is in some point's block. -/
theorem covered (i : S8192x2048.Idx) (h : 1024 ≤ (i 1).val ∧ (i 1).val < 1024 + 512) :
    ∃ t : Fin cfg1.N, (cfg1.win 3).flush t = true ∧ i ∈ ((cfg1.win 3).blk t).view.set := by
  have hi0 : (i 0).val < 8192 := (i 0).isLt
  obtain ⟨t, ht⟩ := idx_onto ⟨(i 0).val / 512, by omega⟩
  have q0 : win1_3.index t (0 : Fin 2) = (i 0).val / 512 := congrFun ht 0
  have q1 : win1_3.index t (1 : Fin 2) = 2 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The result array after the call: the band over what the call found. -/
theorem final (c : Dev nD) :
    (dat1 V c).arrAt 3 cfg1.N
      = band (M := 8192) (K := 4096) (N := 512) (T := 2048) 1024 (V c main_v10) (V c main_v5) (V c main_v14) := by
  funext i
  rw [(dat1 V c).arrAt_eq_piecewise 3 _ (fun t _ => flushed_eq V c t) i, A_eq1]
  by_cases h : 1024 ≤ (i 1).val ∧ (i 1).val < 1024 + 512
  · rw [if_pos (covered i h)]
  · split
    · rfl
    · show V c main_v14 i = _
      unfold band
      rw [dif_neg h]

end Cert.KernelIdeal.Region1

end
-- ==== Proof.Region2.lean ====
/-
  The third pallas_call of the program, read as a value: it leaves, in columns 1536 … 2047 of the wide result array, the
  product of its row operand with its (folded, transposed) weight operand, and every other column as it found it.

  Each of the 16 grid points loads a block of 512 rows of the row operand and the whole weight operand, multiplies them
  into a zero accumulator and stores the 512 × 512 result into the block of the result array at the same rows and at
  column block 3 (blocks of 512 columns).  What a point writes back is therefore that block of ONE whole-array
  function, the band; the blocks of the 16 points cover exactly the band's columns.
-/
import proofs.«133123_j48301202211096_2_alg».proof.Proof.Gen.KernelIdeal.Frame
import proofs.«133123_j48301202211096_2_alg».proof.Proof.Spec
import proofs.«133123_j48301202211096_2_alg».proof.Proof.LibDenseLayers
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.Tracts
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the first block times the column of the second. -/
theorem pay_apply (x0 : Vec Ideal S512x2048 .f32) (x1 : Vec Ideal S2048x512 .bf16) (p : Fin 512) (q : Fin 512) :
    k2_pay1 (F := Ideal) x0 x1 (ix2 p q) = ∑ k : Fin 2048, x0 (ix2 p k) * x1 (ix2 k q) := by
  unfold k2_pay1
  simp only [shapeCast_self]
  exact DenseLayers.matmul_rowcol_zero_apply (m := 512) (k := 2048) (n := 512) dot_S512x2048_S2048x512_S512x512_1_0_0_1_n_n_wf none _ _ p q

/-- The printed index maps over the grid: the row operand's block and the result's block sit at the same block row,
    the weight is one block, and the result's column block is 3. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_3.index t (1 : Fin 2) = 3 ∧ win2_3.index t (0 : Fin 2) ≤ 15 :=
  (by decide +kernel : ∀ t : Fin grid2.N, _)

/-- Every block row is some point's. -/
theorem idx_onto : ∀ q0 : Fin 16, ∃ t : Fin cfg2.N, win2_3.index t = ![q0.val, 3] :=
  (by decide +kernel : ∀ q0 : Fin 16, ∃ t : Fin grid2.N, win2_3.index t = ![q0.val, 3])

/-- What point `t` writes back is block `t` of the band. -/
theorem flushed_eq (c : Dev nD) (t : Fin cfg2.N) :
    (dat2 V c).flushed 3 t = ((cfg2.win 3).blk t).view.read (Elt Ideal)
      (band (M := 8192) (K := 2048) (N := 512) (T := 2048) 1536 (V c main_v11) (V c main_v8) (V c main_v15)) := by
  show (cfg2.win 3).cut (grid2.coords t) ((dat2 V c).after 3 t) = _
  rw [after2_3]
  unfold out2_3
  rw [View.canon_unit_zero hz]
  simp only [View.ld_unit_zero (S := S512x2048) hz, View.ld_unit_zero (S := S2048x512) hz]
  obtain ⟨e0, e1, e2, e3, e4, e5⟩ := idx_facts t
  funext y
  obtain ⟨p, q, rfl⟩ : ∃ (p : Fin 512) (q : Fin 512), y = ix2 p q := ⟨y 0, y 1, eq_ix2 y⟩
  show k2_pay1 (F := Ideal) (iblk2 V c 0 t) (iblk2 V c 1 t) (ix2 p q)
    = band (M := 8192) (K := 2048) (N := 512) (T := 2048) 1536 (V c main_v11) (V c main_v8) (V c main_v15)
        (((cfg2.win 3).blk t).view.emb (ix2 p q))
  refine (pay_apply (iblk2 V c 0 t) (iblk2 V c 1 t) p q).trans ?_
  have hp := p.isLt
  have hq := q.isLt
  have hemb : ((cfg2.win 3).blk t).view.emb (ix2 p q)
      = (ix2 (⟨win2_3.index t (0 : Fin 2) * 512 + p.val, by omega⟩ : Fin 8192) (⟨1536 + q.val, by omega⟩ : Fin 2048) : S8192x2048.Idx) := by
    funext a; apply Fin.ext
    match a with
    | ⟨0, _⟩ => show win2_3.index t (0 : Fin 2) * 512 + 1 * p.val = win2_3.index t (0 : Fin 2) * 512 + p.val; omega
    | ⟨1, _⟩ => show win2_3.index t (1 : Fin 2) * 512 + 1 * q.val = 1536 + q.val; omega
  rw [hemb, band_apply_of_mem 1536 _ _ _ _ _ (by show 1536 ≤ 1536 + q.val ∧ 1536 + q.val < 1536 + 512; omega)]
  unfold prodAt
  refine Finset.sum_congr rfl fun k _ => ?_
  have hk := k.isLt
  have h0 : iblk2 V c 0 t (ix2 p k)
      = V c main_v11 (ix2 (⟨win2_3.index t (0 : Fin 2) * 512 + p.val, by omega⟩ : Fin 8192) k : S8192x2048.Idx) := by
    show V c main_v11 (((cfg2.win 0).blk t).view.emb (ix2 p k)) = _
    refine congrArg (V c main_v11) (funext fun a => Fin.ext ?_)
    match a with
    | ⟨0, _⟩ => show win2_0.index t (0 : Fin 2) * 512 + 1 * p.val = win2_3.index t (0 : Fin 2) * 512 + p.val; omega
    | ⟨1, _⟩ => show win2_0.index t (1 : Fin 2) * 2048 + 1 * k.val = k.val; omega
  have h1 : iblk2 V c 1 t (ix2 k q) = V c main_v8 (ix2 k (⟨1536 + q.val - 1536, by omega⟩ : Fin 512) : S2048x512.Idx) := by
    show V c main_v8 (((cfg2.win 1).blk t).view.emb (ix2 k q)) = _
    refine congrArg (V c main_v8) (funext fun a => Fin.ext ?_)
    match a with
    | ⟨0, _⟩ => show win2_1.index t (0 : Fin 2) * 2048 + 1 * k.val = k.val; omega
    | ⟨1, _⟩ => show win2_1.index t (1 : Fin 2) * 512 + 1 * q.val = 1536 + q.val - 1536; omega
  rw [h0, h1]

/-- An index of the result array is in point `t`'s block iff each coordinate is in the block's range on its axis. -/
theorem mem_blk (t : Fin cfg2.N) (i : S8192x2048.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v15).slice (win2_3.rect t)).set ↔ _
  rw [View.set_slice_whole, Rect.mem_set_unit]
  exact Iff.rfl

/-- Every index in the band's columns is in some point's block. -/
theorem covered (i : S8192x2048.Idx) (h : 1536 ≤ (i 1).val ∧ (i 1).val < 1536 + 512) :
    ∃ t : Fin cfg2.N, (cfg2.win 3).flush t = true ∧ i ∈ ((cfg2.win 3).blk t).view.set := by
  have hi0 : (i 0).val < 8192 := (i 0).isLt
  obtain ⟨t, ht⟩ := idx_onto ⟨(i 0).val / 512, by omega⟩
  have q0 : win2_3.index t (0 : Fin 2) = (i 0).val / 512 := congrFun ht 0
  have q1 : win2_3.index t (1 : Fin 2) = 3 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The result array after the call: the band over what the call found. -/
theorem final (c : Dev nD) :
    (dat2 V c).arrAt 3 cfg2.N
      = band (M := 8192) (K := 2048) (N := 512) (T := 2048) 1536 (V c main_v11) (V c main_v8) (V c main_v15) := by
  funext i
  rw [(dat2 V c).arrAt_eq_piecewise 3 _ (fun t _ => flushed_eq V c t) i, A_eq2]
  by_cases h : 1536 ≤ (i 1).val ∧ (i 1).val < 1536 + 512
  · rw [if_pos (covered i h)]
  · split
    · rfl
    · show V c main_v15 i = _
      unfold band
      rw [dif_neg h]

end Cert.KernelIdeal.Region2

end
-- ==== Proof.Bundle.lean ====
/-
  The bundle of three masked linear maps as ONE function of the nine argument arrays, on the extended reals.

  Tract `a` maps rows of length 4096 to rows of length 1024, tract `b` rows of length 4096 to rows of length 512,
  tract `c` rows of length 2048 to rows of length 512; the three results sit side by side along the last axis, so
  output column `o` belongs to tract `a` when `o < 1024`, to tract `b` when `1024 ≤ o < 1536`, and to tract `c`
  otherwise.
-/
import Idealize.ShloMosaic.PureOps.Ideal
import Idealize.ShloMosaic.Lib.ValueIdx

noncomputable section

namespace Cert.Tracts

open Idealize.ShloMosaic Idealize.ShloMosaic.ValueIdx

/-- One masked linear map at an output entry: `∑ k, x[b, s, k] * (w[o, k] * mask[o, k])`. -/
def tractAt {B S K N : ℕ} (x : (⟨3, ![B, S, K]⟩ : Shape).Idx → EReal) (w mk : (⟨2, ![N, K]⟩ : Shape).Idx → EReal)
    (b : Fin B) (s : Fin S) (o : Fin N) : EReal :=
  ∑ k : Fin K, x (ix3 b s k) * (w (ix2 o k) * mk (ix2 o k))

/-- The bundle at an output entry: the tract the column falls in, at the column counted from the tract's first. -/
def bundleAt (xa xb : (⟨3, ![8, 1024, 4096]⟩ : Shape).Idx → EReal) (xc : (⟨3, ![8, 1024, 2048]⟩ : Shape).Idx → EReal)
    (wa ma : (⟨2, ![1024, 4096]⟩ : Shape).Idx → EReal) (wb mb : (⟨2, ![512, 4096]⟩ : Shape).Idx → EReal)
    (wc mc : (⟨2, ![512, 2048]⟩ : Shape).Idx → EReal) (b : Fin 8) (s : Fin 1024) (o : Fin 2048) : EReal :=
  if h0 : o.val < 1024 then tractAt xa wa ma b s ⟨o.val, h0⟩
  else if h1 : o.val < 1536 then tractAt xb wb mb b s ⟨o.val - 1024, by omega⟩
  else tractAt xc wc mc b s ⟨o.val - 1536, by omega⟩

/-- The bundle as an array. -/
def bundle (xa xb : (⟨3, ![8, 1024, 4096]⟩ : Shape).Idx → EReal) (xc : (⟨3, ![8, 1024, 2048]⟩ : Shape).Idx → EReal)
    (wa ma : (⟨2, ![1024, 4096]⟩ : Shape).Idx → EReal) (wb mb : (⟨2, ![512, 4096]⟩ : Shape).Idx → EReal)
    (wc mc : (⟨2, ![512, 2048]⟩ : Shape).Idx → EReal) : (⟨3, ![8, 1024, 2048]⟩ : Shape).Idx → EReal :=
  fun i => bundleAt xa xb xc wa ma wb mb wc mc ⟨(i 0).val, (i 0).isLt⟩ ⟨(i 1).val, (i 1).isLt⟩ ⟨(i 2).val, (i 2).isLt⟩

theorem bundle_ix3 (xa xb : (⟨3, ![8, 1024, 4096]⟩ : Shape).Idx → EReal) (xc : (⟨3, ![8, 1024, 2048]⟩ : Shape).Idx → EReal)
    (wa ma : (⟨2, ![1024, 4096]⟩ : Shape).Idx → EReal) (wb mb : (⟨2, ![512, 4096]⟩ : Shape).Idx → EReal)
    (wc mc : (⟨2, ![512, 2048]⟩ : Shape).Idx → EReal) (b : Fin 8) (s : Fin 1024) (o : Fin 2048) :
    bundle xa xb xc wa ma wb mb wc mc (ix3 b s o) = bundleAt xa xb xc wa ma wb mb wc mc b s o := rfl

end Cert.Tracts

end
-- ==== Proof.Bands.lean ====
/-
  Three bands that tile the columns, and the flattening of the two leading axes: the arithmetic that joins the wide
  array the three calls fill to the bundle, with no program in sight.
-/
import proofs.«133123_j48301202211096_2_alg».proof.Proof.Spec
import proofs.«133123_j48301202211096_2_alg».proof.Proof.Bundle
import Idealize.ShloMosaic.Lib.Pipeline.Value
import Idealize.ShloMosaic.Lib.ValueIdx

noncomputable section

namespace Cert.Tracts

open Idealize.ShloMosaic Idealize.ShloMosaic.ValueIdx

/-- Bands over columns 0 … 1023, 1024 … 1535 and 1536 … 2047, one over the other: each column reads the band it falls
    in, and nothing of the array underneath is left. -/
theorem band3_apply {M : ℕ} (X0 : (⟨2, ![M, 4096]⟩ : Shape).Idx → EReal) (W0 : (⟨2, ![4096, 1024]⟩ : Shape).Idx → EReal)
    (X1 : (⟨2, ![M, 4096]⟩ : Shape).Idx → EReal) (W1 : (⟨2, ![4096, 512]⟩ : Shape).Idx → EReal)
    (X2 : (⟨2, ![M, 2048]⟩ : Shape).Idx → EReal) (W2 : (⟨2, ![2048, 512]⟩ : Shape).Idx → EReal)
    (Z : (⟨2, ![M, 2048]⟩ : Shape).Idx → EReal) (r : Fin M) (o : Fin 2048) :
    band (N := 512) 1536 X2 W2 (band (N := 512) 1024 X1 W1 (band (N := 1024) 0 X0 W0 Z)) (ix2 r o)
      = if h0 : o.val < 1024 then prodAt X0 W0 r ⟨o.val, h0⟩
        else if h1 : o.val < 1536 then prodAt X1 W1 r ⟨o.val - 1024, by omega⟩
        else prodAt X2 W2 r ⟨o.val - 1536, by omega⟩ := by
  have ho := o.isLt
  by_cases h0 : o.val < 1024
  · rw [dif_pos h0, band_apply_of_not_mem (N := 512) 1536 X2 W2 _ r o (by omega),
      band_apply_of_not_mem (N := 512) 1024 X1 W1 _ r o (by omega),
      band_apply_of_mem (N := 1024) 0 X0 W0 Z r o (by omega)]
    exact congrArg (prodAt X0 W0 r) (Fin.ext (Nat.sub_zero _))
  · rw [dif_neg h0]
    by_cases h1 : o.val < 1536
    · rw [dif_pos h1, band_apply_of_not_mem (N := 512) 1536 X2 W2 _ r o (by omega),
        band_apply_of_mem (N := 512) 1024 X1 W1 _ r o (by omega)]
    · rw [dif_neg h1, band_apply_of_mem (N := 512) 1536 X2 W2 _ r o (by omega)]

/-- A product's entry is a tract's entry when the row operand is the input's row and the weight operand is the
    transposed masked weight. -/
theorem prodAt_eq_tractAt {M B S K N : ℕ} (X : (⟨2, ![M, K]⟩ : Shape).Idx → EReal) (Wt : (⟨2, ![K, N]⟩ : Shape).Idx → EReal)
    (x : (⟨3, ![B, S, K]⟩ : Shape).Idx → EReal) (w mk : (⟨2, ![N, K]⟩ : Shape).Idx → EReal)
    (r : Fin M) (b : Fin B) (s : Fin S) (o : Fin N)
    (hX : ∀ k : Fin K, X (ix2 r k) = x (ix3 b s k)) (hW : ∀ k : Fin K, Wt (ix2 k o) = w (ix2 o k) * mk (ix2 o k)) :
    prodAt X Wt r o = tractAt x w mk b s o := by
  unfold prodAt tractAt
  exact Finset.sum_congr rfl fun k _ => by rw [hX k, hW k]

/-- The two leading axes `[8, 1024]` flattened into 8192 rows: row `b * 1024 + s` is `(b, s)`. -/
theorem flatten_apply {α : Type} {K : ℕ} (x : (⟨3, ![8, 1024, K]⟩ : Shape).Idx → α)
    (h : (⟨3, ![8, 1024, K]⟩ : Shape).ShapeCasts ⟨2, ![8192, K]⟩) (b : Fin 8) (s : Fin 1024) (k : Fin K) :
    shapeCast ⟨2, ![8192, K]⟩ x h (ix2 (⟨b.val * 1024 + s.val, by omega⟩ : Fin 8192) k) = x (ix3 b s k) :=
  shapeCast_apply x h _ _ (by
    rw [Shape.rowMajor_val_three, Shape.rowMajor_val_two]
    show (b.val * 1024 + s.val) * K + k.val = (b.val * 1024 + s.val) * K + k.val
    rfl)

/-- … and split back. -/
theorem unflatten_apply {α : Type} {K : ℕ} (y : (⟨2, ![8192, K]⟩ : Shape).Idx → α)
    (h : (⟨2, ![8192, K]⟩ : Shape).ShapeCasts ⟨3, ![8, 1024, K]⟩) (b : Fin 8) (s : Fin 1024) (k : Fin K) :
    shapeCast ⟨3, ![8, 1024, K]⟩ y h (ix3 b s k) = y (ix2 (⟨b.val * 1024 + s.val, by omega⟩ : Fin 8192) k) :=
  shapeCast_apply y h _ _ (by
    rw [Shape.rowMajor_val_three, Shape.rowMajor_val_two]
    show (b.val * 1024 + s.val) * K + k.val = (b.val * 1024 + s.val) * K + k.val
    rfl)

end Cert.Tracts

end
-- ==== Proof.KernelValue.lean ====
/-
  What the idealized kernel program's result buffer holds at the end: the bundle of its nine arguments.

  The host part of the program folds each mask into its weight, transposes the product (the change of float format in
  between is the identity on the extended reals), flattens each input's two leading axes into 8192 rows, and makes a
  wide array of zeros.  The three pallas_calls then run one after the other on that wide array, each on a copy of its
  predecessor's result, each filling its own band of columns (the region modules).  The three bands tile the 2048
  columns, so no zero survives, and the last host operation splits the 8192 rows back into 8 × 1024.  Read at an
  output entry `(b, s, o)` this is row `b * 1024 + s` of the flattened input of the tract that owns column `o`,
  times that tract's folded weight column: the bundle.
-/
import proofs.«133123_j48301202211096_2_alg».proof.Proof.Region0
import proofs.«133123_j48301202211096_2_alg».proof.Proof.Region1
import proofs.«133123_j48301202211096_2_alg».proof.Proof.Region2
import proofs.«133123_j48301202211096_2_alg».proof.Proof.Bundle
import proofs.«133123_j48301202211096_2_alg».proof.Proof.Bands
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.Tracts
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host operations before the first call -/

theorem v9_eq (c : Dev nD) : (V1 m ρ c main_v9 : S8192x4096.Idx → EReal)
    = shapeCast S8192x4096 (m ((c : Thread nD τ).loc main_arg0)) shapeCasts_S8x1024x4096_S8192x4096 := by
  dsimp only [V1, W1, hostOps0]; after_results <;> rfl

theorem v10_eq (c : Dev nD) : (V1 m ρ c main_v10 : S8192x4096.Idx → EReal)
    = shapeCast S8192x4096 (m ((c : Thread nD τ).loc main_arg1)) shapeCasts_S8x1024x4096_S8192x4096 := by
  dsimp only [V1, W1, hostOps0]; after_results <;> rfl

theorem v11_eq (c : Dev nD) : (V1 m ρ c main_v11 : S8192x2048.Idx → EReal)
    = shapeCast S8192x2048 (m ((c : Thread nD τ).loc main_arg2)) shapeCasts_S8x1024x2048_S8192x2048 := by
  dsimp only [V1, W1, hostOps0]; after_results <;> rfl

theorem v2_eq (c : Dev nD) : (V1 m ρ c main_v2 : S4096x1024.Idx → EReal)
    = transpose S4096x1024 [1, 0] (truncf (F := Ideal) .bf16 (mulf (F := Ideal) (m ((c : Thread nD τ).loc main_arg3)) (m ((c : Thread nD τ).loc main_arg6))) bitsLt_bf16_f32)
        transposes_S1024x4096_S4096x1024_1_0 := by
  dsimp only [V1, W1, hostOps0]; after_results <;> rfl

theorem v5_eq (c : Dev nD) : (V1 m ρ c main_v5 : S4096x512.Idx → EReal)
    = transpose S4096x512 [1, 0] (truncf (F := Ideal) .bf16 (mulf (F := Ideal) (m ((c : Thread nD τ).loc main_arg4)) (m ((c : Thread nD τ).loc main_arg7))) bitsLt_bf16_f32)
        transposes_S512x4096_S4096x512_1_0 := by
  dsimp only [V1, W1, hostOps0]; after_results <;> rfl

theorem v8_eq (c : Dev nD) : (V1 m ρ c main_v8 : S2048x512.Idx → EReal)
    = transpose S2048x512 [1, 0] (truncf (F := Ideal) .bf16 (mulf (F := Ideal) (m ((c : Thread nD τ).loc main_arg5)) (m ((c : Thread nD τ).loc main_arg8))) bitsLt_bf16_f32)
        transposes_S512x2048_S2048x512_1_0 := by
  dsimp only [V1, W1, hostOps0]; after_results <;> rfl

/-! ## Between the calls: each call's operands as the host part left them, its wide array as the previous call left it -/

theorem V3_v10 (c : Dev nD) : (V3 m ρ c main_v10 : S8192x4096.Idx → EReal) = V1 m ρ c main_v10 := by
  have h : (V3 m ρ c main_v10 : S8192x4096.Idx → EReal) = W2 m ρ c (Proc.devRef .tc main_v10) := by
    dsimp only [V3, W3, hostOps1]; after_results <;> rfl
  exact h.trans (W2_of_ne m ρ c main_v10 (by decide))

theorem V3_v5 (c : Dev nD) : (V3 m ρ c main_v5 : S4096x512.Idx → EReal) = V1 m ρ c main_v5 := by
  have h : (V3 m ρ c main_v5 : S4096x512.Idx → EReal) = W2 m ρ c (Proc.devRef .tc main_v5) := by
    dsimp only [V3, W3, hostOps1]; after_results <;> rfl
  exact h.trans (W2_of_ne m ρ c main_v5 (by decide))

theorem V3_v14 (c : Dev nD) : (V3 m ρ c main_v14 : S8192x2048.Idx → EReal) = (dat0 (V1 m ρ) c).arrAt 3 cfg0.N := by
  have h : (V3 m ρ c main_v14 : S8192x2048.Idx → EReal) = W2 m ρ c (Proc.devRef .tc main_v13) := by
    dsimp only [V3, W3, hostOps1]; after_results <;> rfl
  exact h.trans (W2_arr m ρ c 3)

theorem V5_v11 (c : Dev nD) : (V5 m ρ c main_v11 : S8192x2048.Idx → EReal) = V1 m ρ c main_v11 := by
  have h5 : (V5 m ρ c main_v11 : S8192x2048.Idx → EReal) = W4 m ρ c (Proc.devRef .tc main_v11) := by
    dsimp only [V5, W5, hostOps2]; after_results <;> rfl
  have h3 : (W3 m ρ c (Proc.devRef .tc main_v11) : S8192x2048.Idx → EReal) = W2 m ρ c (Proc.devRef .tc main_v11) := by
    dsimp only [W3, hostOps1]; after_results <;> rfl
  exact h5.trans ((W4_of_ne m ρ c main_v11 (by decide)).trans (h3.trans (W2_of_ne m ρ c main_v11 (by decide))))

theorem V5_v8 (c : Dev nD) : (V5 m ρ c main_v8 : S2048x512.Idx → EReal) = V1 m ρ c main_v8 := by
  have h5 : (V5 m ρ c main_v8 : S2048x512.Idx → EReal) = W4 m ρ c (Proc.devRef .tc main_v8) := by
    dsimp only [V5, W5, hostOps2]; after_results <;> rfl
  have h3 : (W3 m ρ c (Proc.devRef .tc main_v8) : S2048x512.Idx → EReal) = W2 m ρ c (Proc.devRef .tc main_v8) := by
    dsimp only [W3, hostOps1]; after_results <;> rfl
  exact h5.trans ((W4_of_ne m ρ c main_v8 (by decide)).trans (h3.trans (W2_of_ne m ρ c main_v8 (by decide))))

theorem V5_v15 (c : Dev nD) : (V5 m ρ c main_v15 : S8192x2048.Idx → EReal) = (dat1 (V3 m ρ) c).arrAt 3 cfg1.N := by
  have h : (V5 m ρ c main_v15 : S8192x2048.Idx → EReal) = W4 m ρ c (Proc.devRef .tc main_v14) := by
    dsimp only [V5, W5, hostOps2]; after_results <;> rfl
  exact h.trans (W4_arr m ρ c 3)

theorem W7_v16 (c : Dev nD) : (W7 m ρ c (Proc.devRef .tc main_v16) : S8x1024x2048.Idx → EReal)
    = shapeCast S8x1024x2048 ((dat2 (V5 m ρ) c).arrAt 3 cfg2.N) shapeCasts_S8192x2048_S8x1024x2048 := by
  have h : (W7 m ρ c (Proc.devRef .tc main_v16) : S8x1024x2048.Idx → EReal)
      = shapeCast S8x1024x2048 (W6 m ρ c (Proc.devRef .tc main_v15)) shapeCasts_S8192x2048_S8x1024x2048 := by
    dsimp only [W7, hostOps3]; after_results <;> rfl
  rw [h]
  exact congrArg (fun a => shapeCast S8x1024x2048 a shapeCasts_S8192x2048_S8x1024x2048) (W6_arr m ρ c 3)

/-! ## The wide array after the three calls, and the result -/

/-- After the third call the wide array is three bands, one over the other, over the zeros. -/
theorem wide_eq (c : Dev nD) : (dat2 (V5 m ρ) c).arrAt 3 cfg2.N
    = band (M := 8192) (K := 2048) (N := 512) (T := 2048) 1536 (V1 m ρ c main_v11) (V1 m ρ c main_v8)
        (band (M := 8192) (K := 4096) (N := 512) (T := 2048) 1024 (V1 m ρ c main_v10) (V1 m ρ c main_v5)
          (band (M := 8192) (K := 4096) (N := 1024) (T := 2048) 0 (V1 m ρ c main_v9) (V1 m ρ c main_v2) (V1 m ρ c main_v13))) := by
  rw [Region2.final (V5 m ρ) c, V5_v15, Region1.final (V3 m ρ) c, V3_v14, Region0.final (V1 m ρ) c,
    V5_v11, V5_v8, V3_v10, V3_v5]

/-- A transposed masked weight read at an entry. -/
theorem weight_apply {N K : ℕ} (w mk : (⟨2, ![N, K]⟩ : Shape).Idx → EReal) (hb : FTy.bits .bf16 < FTy.bits .f32)
    (ht : (⟨2, ![N, K]⟩ : Shape).Transposes [1, 0] ⟨2, ![K, N]⟩) (k : Fin K) (o : Fin N) :
    transpose ⟨2, ![K, N]⟩ [1, 0] (truncf (F := Ideal) .bf16 (mulf (F := Ideal) (φ := .f32) w mk) hb) ht (ix2 k o)
      = w (ix2 o k) * mk (ix2 o k) :=
  (transpose_ix2_apply _ ht k o).trans rfl

/-- THE RESULT: at the end the program's result buffer holds the bundle of the nine argument arrays. -/
theorem result_eq (c : Dev nD) : (W7 m ρ c (Proc.devRef .tc main_v16) : S8x1024x2048.Idx → EReal)
    = bundle (m ((c : Thread nD τ).loc main_arg0)) (m ((c : Thread nD τ).loc main_arg1)) (m ((c : Thread nD τ).loc main_arg2))
        (m ((c : Thread nD τ).loc main_arg3)) (m ((c : Thread nD τ).loc main_arg6))
        (m ((c : Thread nD τ).loc main_arg4)) (m ((c : Thread nD τ).loc main_arg7))
        (m ((c : Thread nD τ).loc main_arg5)) (m ((c : Thread nD τ).loc main_arg8)) := by
  rw [W7_v16, wide_eq, v9_eq, v10_eq, v11_eq, v2_eq, v5_eq, v8_eq]
  funext i
  obtain ⟨b, s, o, rfl⟩ : ∃ (b : Fin 8) (s : Fin 1024) (o : Fin 2048), i = ix3 b s o := ⟨i 0, i 1, i 2, eq_ix3 i⟩
  rw [bundle_ix3]
  refine (unflatten_apply _ shapeCasts_S8192x2048_S8x1024x2048 b s o).trans ?_
  rw [band3_apply]
  unfold bundleAt
  have hb := b.isLt
  have hs := s.isLt
  by_cases h0 : o.val < 1024
  · rw [dif_pos h0, dif_pos h0]
    exact prodAt_eq_tractAt _ _ _ _ _ _ b s _ (fun k => flatten_apply _ _ b s k) (fun k => weight_apply _ _ _ _ k _)
  · rw [dif_neg h0, dif_neg h0]
    by_cases h1 : o.val < 1536
    · rw [dif_pos h1, dif_pos h1]
      exact prodAt_eq_tractAt _ _ _ _ _ _ b s _ (fun k => flatten_apply _ _ b s k) (fun k => weight_apply _ _ _ _ k _)
    · rw [dif_neg h1, dif_neg h1]
      exact prodAt_eq_tractAt _ _ _ _ _ _ b s _ (fun k => flatten_apply _ _ b s k) (fun k => weight_apply _ _ _ _ k _)

end Cert.KernelIdeal.KernelValue

end
-- ==== Proof.RefValue.lean ====
/-
  The reference program's result is the bundle.  The reference multiplies each weight by its mask, contracts each input
  with the masked weight over the last axis of both, and concatenates the three results along the last axis; read at an
  output entry, the concatenation picks the piece the column falls in, and each piece is the tract's sum.
-/
import proofs.«133123_j48301202211096_2_alg».proof.Proof.Gen.ReferenceIdeal.Read
import proofs.«133123_j48301202211096_2_alg».proof.Proof.Bundle
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Tracts
open Idealize.ShloMosaic Idealize.ShloMosaic.ValueIdx

theorem piece_a (x0 : S8x1024x4096.Idx → EReal) (x3 x6 : S1024x4096.Idx → EReal) (b : Fin 8) (s : Fin 1024) (o : Fin 1024) :
    val_main_v1 (F := Ideal) x0 x3 x6 (ix3 b s o) = tractAt x0 x3 x6 b s o := by
  rw [val_main_v1_apply]
  unfold tractAt
  refine Finset.sum_congr rfl fun k _ => ?_
  have el : lidx_main_v1 (ix3 b s o) k = ix3 b s k := funext fun a => Fin.ext (by
    match a with
    | ⟨0, _⟩ => rfl
    | ⟨1, _⟩ => rfl
    | ⟨2, _⟩ => rfl)
  have er : ridx_main_v1 (ix3 b s o) k = ix2 o k := funext fun a => Fin.ext (by
    match a with
    | ⟨0, _⟩ => rfl
    | ⟨1, _⟩ => rfl)
  rw [el, er]
  rfl

theorem piece_b (x1 : S8x1024x4096.Idx → EReal) (x4 x7 : S512x4096.Idx → EReal) (b : Fin 8) (s : Fin 1024) (o : Fin 512) :
    val_main_v3 (F := Ideal) x1 x4 x7 (ix3 b s o) = tractAt x1 x4 x7 b s o := by
  rw [val_main_v3_apply]
  unfold tractAt
  refine Finset.sum_congr rfl fun k _ => ?_
  have el : lidx_main_v3 (ix3 b s o) k = ix3 b s k := funext fun a => Fin.ext (by
    match a with
    | ⟨0, _⟩ => rfl
    | ⟨1, _⟩ => rfl
    | ⟨2, _⟩ => rfl)
  have er : ridx_main_v3 (ix3 b s o) k = ix2 o k := funext fun a => Fin.ext (by
    match a with
    | ⟨0, _⟩ => rfl
    | ⟨1, _⟩ => rfl)
  rw [el, er]
  rfl

theorem piece_c (x2 : S8x1024x2048.Idx → EReal) (x5 x8 : S512x2048.Idx → EReal) (b : Fin 8) (s : Fin 1024) (o : Fin 512) :
    val_main_v5 (F := Ideal) x2 x5 x8 (ix3 b s o) = tractAt x2 x5 x8 b s o := by
  rw [val_main_v5_apply]
  unfold tractAt
  refine Finset.sum_congr rfl fun k _ => ?_
  have el : lidx_main_v5 (ix3 b s o) k = ix3 b s k := funext fun a => Fin.ext (by
    match a with
    | ⟨0, _⟩ => rfl
    | ⟨1, _⟩ => rfl
    | ⟨2, _⟩ => rfl)
  have er : ridx_main_v5 (ix3 b s o) k = ix2 o k := funext fun a => Fin.ext (by
    match a with
    | ⟨0, _⟩ => rfl
    | ⟨1, _⟩ => rfl)
  rw [el, er]
  rfl

/-- The reference's result array is the bundle of its arguments. -/
theorem result_eq (x0 x1 : S8x1024x4096.Idx → EReal) (x2 : S8x1024x2048.Idx → EReal) (x3 : S1024x4096.Idx → EReal)
    (x4 : S512x4096.Idx → EReal) (x5 : S512x2048.Idx → EReal) (x6 : S1024x4096.Idx → EReal) (x7 : S512x4096.Idx → EReal)
    (x8 : S512x2048.Idx → EReal) :
    val_main_v6 (F := Ideal) x0 x1 x2 x3 x4 x5 x6 x7 x8 = bundle x0 x1 x2 x3 x6 x4 x7 x5 x8 := by
  funext i
  obtain ⟨b, s, o, rfl⟩ : ∃ (b : Fin 8) (s : Fin 1024) (o : Fin 2048), i = ix3 b s o := ⟨i 0, i 1, i 2, eq_ix3 i⟩
  rw [bundle_ix3]
  unfold val_main_v6 bundleAt
  by_cases h0 : o.val < 1024
  · rw [dif_pos h0, ← piece_a]
    exact concatenate_apply_piece (2 : Fin 3) _ _ (ix3 b s o) 0 (by show (0 : ℕ) < 3; omega) S8x1024x1024 _ rfl rfl 0 rfl
      (ix3 b s ⟨o.val, h0⟩) (fun a ha => match a with | ⟨0, _⟩ => rfl | ⟨1, _⟩ => rfl | ⟨2, _⟩ => absurd rfl ha)
      (by show 0 + o.val = o.val; omega)
  · rw [dif_neg h0]
    by_cases h1 : o.val < 1536
    · rw [dif_pos h1, ← piece_b]
      exact concatenate_apply_piece (2 : Fin 3) _ _ (ix3 b s o) 1 (by show (1 : ℕ) < 3; omega) S8x1024x512 _ rfl rfl 1024 rfl
        (ix3 b s ⟨o.val - 1024, by omega⟩) (fun a ha => match a with | ⟨0, _⟩ => rfl | ⟨1, _⟩ => rfl | ⟨2, _⟩ => absurd rfl ha)
        (by show 1024 + (o.val - 1024) = o.val; omega)
    · rw [dif_neg h1, ← piece_c]
      exact concatenate_apply_piece (2 : Fin 3) _ _ (ix3 b s o) 2 (by show (2 : ℕ) < 3; omega) S8x1024x512 _ rfl rfl 1536 rfl
        (ix3 b s ⟨o.val - 1536, by have := o.isLt; omega⟩) (fun a ha => match a with | ⟨0, _⟩ => rfl | ⟨1, _⟩ => rfl | ⟨2, _⟩ => absurd rfl ha)
        (by show 1536 + (o.val - 1536) = o.val; omega)

end Cert.ReferenceIdeal.RefValue

end
-- ==== Proof.lean ====
/-
  Three masked linear maps, side by side.  Each of three inputs `x` of shape [8, 1024, K] is mapped by
  `out[b, s, o] = ∑ k, x[b, s, k] * (w[o, k] * mask[o, k])` and the three results are laid next to each other along
  the last axis (1024 + 512 + 512 = 2048 columns).

  The kernel program folds each mask into its weight and transposes it on the host, flattens the two leading axes of
  each input, and runs one pallas_call per map; every call multiplies blocks of 512 rows by the whole folded weight
  and writes into its own band of columns of ONE wide array, which it receives from its predecessor.  The reference
  contracts each input with its masked weight and concatenates.  On the extended reals a change of float format is the
  identity and both programs compute, entry by entry, the same finite sum of the same products in the same order of
  factors, so the claim needs no algebra beyond reading both sides at an index, and never opens the precondition.

  `algebraic`: the kernel program's run (the three calls' bands, Proof/Region0–2.lean, joined in
  Proof/KernelValue.lean) and the reference's run (read in Proof/RefValue.lean) both end with the result at the bundle
  of the nine arguments (Proof/Bundle.lean).  `preserves` is trivial: the idealization rewrote nothing.  The frames of
  the two kernel programs are their runs with the result forgotten; the reference's frame is its run likewise.
-/
import proofs.«133123_j48301202211096_2_alg».proof.Defs
import proofs.«133123_j48301202211096_2_alg».proof.Proof.Gen.Kernel
import proofs.«133123_j48301202211096_2_alg».proof.Proof.Gen.Kernel.Skeleton
import proofs.«133123_j48301202211096_2_alg».proof.Proof.Gen.Kernel.Launch
import proofs.«133123_j48301202211096_2_alg».proof.Proof.Gen.Kernel.Points
import proofs.«133123_j48301202211096_2_alg».proof.Proof.Gen.Kernel.Frame
import proofs.«133123_j48301202211096_2_alg».proof.Proof.Gen.KernelIdeal
import proofs.«133123_j48301202211096_2_alg».proof.Proof.Gen.KernelIdeal.Skeleton
import proofs.«133123_j48301202211096_2_alg».proof.Proof.Gen.KernelIdeal.Launch
import proofs.«133123_j48301202211096_2_alg».proof.Proof.Gen.KernelIdeal.Points
import proofs.«133123_j48301202211096_2_alg».proof.Proof.Gen.KernelIdeal.Frame
import proofs.«133123_j48301202211096_2_alg».proof.Proof.Gen.ReferenceIdeal
import proofs.«133123_j48301202211096_2_alg».proof.Proof.Gen.Pre_finite_inputs
import proofs.«133123_j48301202211096_2_alg».proof.Proof.Gen.ReferenceIdeal.Run
import proofs.«133123_j48301202211096_2_alg».proof.Proof.Gen.ReferenceIdeal.Read
import proofs.«133123_j48301202211096_2_alg».proof.Proof.KernelRun
import proofs.«133123_j48301202211096_2_alg».proof.Proof.KernelValue
import proofs.«133123_j48301202211096_2_alg».proof.Proof.RefValue
import Idealize.ShloMosaic.Adequacy
import Idealize.ShloMosaic.Init

noncomputable section

namespace Cert.Proof

open Idealize.ShloMosaic Idealize.ShloMosaic.TcCoe Idealize.SL.Sem Cert.Tracts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the arguments, end with the result at the bundle of the arguments. -/
theorem algebraic : Cert.algebraic_KernelIdeal_ReferenceIdeal := by
  intro m ρ m' ρ' _ hagree
  refine ⟨fun c => bundle
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
